-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1600 : Shape := ⟨3, ![4, 2048, 1600]⟩
abbrev S1600x6400 : Shape := ⟨2, ![1600, 6400]⟩
abbrev S6400 : Shape := ⟨1, ![6400]⟩
abbrev S_ : Shape := ⟨0, ![]⟩

class Facts : Prop where
  bcast_S_S4x2048x1600 : S_.BroadcastsInDim S4x2048x1600 (![] : Fin 0 → Fin S4x2048x1600.rank)
  reducesTo_S4x2048x1600_S_d0_1_2 : S4x2048x1600.ReducesTo [0, 1, 2] S_
  h_S_ : 0 < S_.numel
  bcast_S_S1600x6400 : S_.BroadcastsInDim S1600x6400 (![] : Fin 0 → Fin S1600x6400.rank)
  reducesTo_S1600x6400_S_d0_1 : S1600x6400.ReducesTo [0, 1] S_
  bcast_S_S6400 : S_.BroadcastsInDim S6400 (![] : Fin 0 → Fin S6400.rank)
  reducesTo_S6400_S_d0 : S6400.ReducesTo [0] S_

variable [Facts]

def fn {F : FTy → Type} [FloatOps F] (main_arg0 : FVec F S4x2048x1600 .f32) (main_arg1 : FVec F S1600x6400 .f32) (main_arg2 : FVec F S6400 .f32) : IVec S_ 1 :=
  let main_v0 : FVec F S4x2048x1600 .f32 := Host.absf main_arg0
  let main_cst : FVec F S_ .f32 := constant S_ .f32 0x7F800000#32
  let main_v1 : FVec F S4x2048x1600 .f32 := broadcastInDim S4x2048x1600 ![] bcast_S_S4x2048x1600 main_cst
  let main_v2 : IVec S4x2048x1600 1 := cmpf .olt main_v0 main_v1
  let main_c : IVec S_ 1 := constantI S_ 1 1#1
  let main_v3 : IVec S_ 1 := (fun x v => Host.reduce IntOp.andi x v reducesTo_S4x2048x1600_S_d0_1_2 h_S_) main_v2 main_c
  let main_v4 : FVec F S1600x6400 .f32 := Host.absf main_arg1
  let main_cst_0 : FVec F S_ .f32 := constant S_ .f32 0x7F800000#32
  let main_v5 : FVec F S1600x6400 .f32 := broadcastInDim S1600x6400 ![] bcast_S_S1600x6400 main_cst_0
  let main_v6 : IVec S1600x6400 1 := cmpf .olt main_v4 main_v5
  let main_c_1 : IVec S_ 1 := constantI S_ 1 1#1
  let main_v7 : IVec S_ 1 := (fun x v => Host.reduce IntOp.andi x v reducesTo_S1600x6400_S_d0_1 h_S_) main_v6 main_c_1
  let main_v8 : IVec S_ 1 := andi main_v3 main_v7
  let main_v9 : FVec F S6400 .f32 := Host.absf main_arg2
  let main_cst_2 : FVec F S_ .f32 := constant S_ .f32 0x7F800000#32
  let main_v10 : FVec F S6400 .f32 := broadcastInDim S6400 ![] bcast_S_S6400 main_cst_2
  let main_v11 : IVec S6400 1 := cmpf .olt main_v9 main_v10
  let main_c_3 : IVec S_ 1 := constantI S_ 1 1#1
  let main_v12 : IVec S_ 1 := (fun x v => Host.reduce IntOp.andi x v reducesTo_S6400_S_d0 h_S_) main_v11 main_c_3
  let main_v13 : IVec S_ 1 := andi main_v8 main_v12
  main_v13
-- ==== Kernel.lean ====
abbrev S4x2048x1600 : Shape := ⟨3, ![4, 2048, 1600]⟩
abbrev S1600x6400 : Shape := ⟨2, ![1600, 6400]⟩
abbrev S6400 : Shape := ⟨1, ![6400]⟩
abbrev S160x6400 : Shape := ⟨2, ![160, 6400]⟩
abbrev S160 : Shape := ⟨1, ![160]⟩
abbrev S160x1 : Shape := ⟨2, ![160, 1]⟩
abbrev S8192x1600 : Shape := ⟨2, ![8192, 1600]⟩
abbrev S512x1600 : Shape := ⟨2, ![512, 1600]⟩
abbrev S512 : Shape := ⟨1, ![512]⟩
abbrev S512x1 : Shape := ⟨2, ![512, 1]⟩
abbrev S1x6400 : Shape := ⟨2, ![1, 6400]⟩
abbrev S8192x6400 : Shape := ⟨2, ![8192, 6400]⟩
abbrev S1024x1600 : Shape := ⟨2, ![1024, 1600]⟩
abbrev S1600x1280 : Shape := ⟨2, ![1600, 1280]⟩
abbrev S1x1280 : Shape := ⟨2, ![1, 1280]⟩
abbrev S1024x1280 : Shape := ⟨2, ![1024, 1280]⟩
abbrev S4x2048x6400 : Shape := ⟨3, ![4, 2048, 6400]⟩

abbrev nBuf : Space → Nat
  | .hbm => 9
  | .vmem => 16
  | .smem => 0
  | _ => 0

abbrev bufTy : (tb : Table) → Fin (tcTables nBuf tb) → BufTy
  | .hbm, ⟨0, _⟩ => ⟨S4x2048x1600, .f32⟩
  | .hbm, ⟨1, _⟩ => ⟨S1600x6400, .f32⟩
  | .hbm, ⟨2, _⟩ => ⟨S6400, .f32⟩
  | .hbm, ⟨3, _⟩ => ⟨S1600x6400, .bf16⟩
  | .hbm, ⟨4, _⟩ => ⟨S8192x1600, .f32⟩
  | .hbm, ⟨5, _⟩ => ⟨S8192x1600, .bf16⟩
  | .hbm, ⟨6, _⟩ => ⟨S1x6400, .f32⟩
  | .hbm, ⟨7, _⟩ => ⟨S8192x6400, .f32⟩
  | .hbm, ⟨8, _⟩ => ⟨S4x2048x6400, .f32⟩
  | .local _ .vmem, ⟨0, _⟩ => ⟨S160x6400, .f32⟩
  | .local _ .vmem, ⟨1, _⟩ => ⟨S160x6400, .f32⟩
  | .local _ .vmem, ⟨2, _⟩ => ⟨S160x6400, .bf16⟩
  | .local _ .vmem, ⟨3, _⟩ => ⟨S160x6400, .bf16⟩
  | .local _ .vmem, ⟨4, _⟩ => ⟨S512x1600, .f32⟩
  | .local _ .vmem, ⟨5, _⟩ => ⟨S512x1600, .f32⟩
  | .local _ .vmem, ⟨6, _⟩ => ⟨S512x1600, .bf16⟩
  | .local _ .vmem, ⟨7, _⟩ => ⟨S512x1600, .bf16⟩
  | .local _ .vmem, ⟨8, _⟩ => ⟨S1024x1600, .bf16⟩
  | .local _ .vmem, ⟨9, _⟩ => ⟨S1024x1600, .bf16⟩
  | .local _ .vmem, ⟨10, _⟩ => ⟨S1600x1280, .bf16⟩
  | .local _ .vmem, ⟨11, _⟩ => ⟨S1600x1280, .bf16⟩
  | .local _ .vmem, ⟨12, _⟩ => ⟨S1x1280, .f32⟩
  | .local _ .vmem, ⟨13, _⟩ => ⟨S1x1280, .f32⟩
  | .local _ .vmem, ⟨14, _⟩ => ⟨S1024x1280, .f32⟩
  | .local _ .vmem, ⟨15, _⟩ => ⟨S1024x1280, .f32⟩
  | _, _ => ⟨S4x2048x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x6400 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1600 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 5], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1600 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1600x1280 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1280 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S160x6400_S160x6400_0_0 : ∀ a, (![0, 0] : Fin 2 → Nat) a + S160x6400.size a ≤ S160x6400.size a
  h_S160x6400 : 0 < S160x6400.numel
  reduces_S160x6400_S160 : S160x6400.Reduces [1] S160
  shapeCasts_S160_S160x1 : S160.ShapeCasts S160x1
  broadcasts_S160x1_S160x6400 : S160x1.Broadcasts S160x6400
  bitsLt_bf16_f32 : FTy.bits .bf16 < FTy.bits .f32
  packedbf16_S160x6400_S160x6400_0_0 : (Rect.unit (s := S160x6400) ![0, 0] S160x6400.size inb_S160x6400_S160x6400_0_0).PackedRows (EltTy.packing .bf16)
  shapeCasts_S4x2048x1600_S8192x1600 : S4x2048x1600.ShapeCasts S8192x1600
  inb_S512x1600_S512x1600_0_0 : ∀ a, (![0, 0] : Fin 2 → Nat) a + S512x1600.size a ≤ S512x1600.size a
  h_S512x1600 : 0 < S512x1600.numel
  shapeCasts_S512x1600_S512x1600 : S512x1600.ShapeCasts S512x1600
  reduces_S512x1600_S512 : S512x1600.Reduces [1] S512
  shapeCasts_S512_S512x1 : S512.ShapeCasts S512x1
  broadcasts_S512x1_S512x1600 : S512x1.Broadcasts S512x1600
  packedbf16_S512x1600_S512x1600_0_0 : (Rect.unit (s := S512x1600) ![0, 0] S512x1600.size inb_S512x1600_S512x1600_0_0).PackedRows (EltTy.packing .bf16)
  shapeCasts_S6400_S1x6400 : S6400.ShapeCasts S1x6400
  inb_S1024x1600_S1024x1600_0_0 : ∀ a, (![0, 0] : Fin 2 → Nat) a + S1024x1600.size a ≤ S1024x1600.size a
  h_S1024x1600 : 0 < S1024x1600.numel
  shapeCasts_S1024x1600_S1024x1600 : S1024x1600.ShapeCasts S1024x1600
  inb_S1600x1280_S1600x1280_0_0 : ∀ a, (![0, 0] : Fin 2 → Nat) a + S1600x1280.size a ≤ S1600x1280.size a
  h_S1600x1280 : 0 < S1600x1280.numel
  shapeCasts_S1600x1280_S1600x1280 : S1600x1280.ShapeCasts S1600x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  inb_S1024x1280_S1024x1280_0_0 : ∀ a, (![0, 0] : Fin 2 → Nat) a + S1024x1280.size a ≤ S1024x1280.size a
  h_S1024x1280 : 0 < S1024x1280.numel
  shapeCasts_S8192x6400_S4x2048x6400 : S8192x6400.ShapeCasts S4x2048x6400
  dot_S1024x1600_S1600x1280_S1024x1280_1_0_0_1_n_n_wf : DotDims.WF S1024x1600 S1600x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S160x6400.size a ≤ S1600x6400.size a
  hwx0_0 : ∀ i : grid0.Coords, EltTy.bits .f32 = 32 ∨ (Rect.block (s := S1600x6400) S160x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S160x6400.size a ≤ S1600x6400.size a
  hwx0_1 : ∀ i : grid0.Coords, EltTy.bits .bf16 = 32 ∨ (Rect.block (s := S1600x6400) S160x6400.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1600.size a ≤ S8192x1600.size a
  hwx1_0 : ∀ i : grid1.Coords, EltTy.bits .f32 = 32 ∨ (Rect.block (s := S8192x1600) S512x1600.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1600.size a ≤ S8192x1600.size a
  hwx1_1 : ∀ i : grid1.Coords, EltTy.bits .bf16 = 32 ∨ (Rect.block (s := S8192x1600) S512x1600.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1600.size a ≤ S8192x1600.size a
  hwx2_0 : ∀ i : grid2.Coords, EltTy.bits .bf16 = 32 ∨ (Rect.block (s := S8192x1600) S1024x1600.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1600x1280.size a ≤ S1600x6400.size a
  hwx2_1 : ∀ i : grid2.Coords, EltTy.bits .bf16 = 32 ∨ (Rect.block (s := S1600x6400) S1600x1280.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1280.size a ≤ S1x6400.size a
  hwx2_2 : ∀ i : grid2.Coords, EltTy.bits .f32 = 32 ∨ (Rect.block (s := S1x6400) S1x1280.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1280.size a ≤ S8192x6400.size a
  hwx2_3 : ∀ i : grid2.Coords, EltTy.bits .f32 = 32 ∨ (Rect.block (s := S8192x6400) S1024x1280.size (cc2_transform_3 i) (hinb2_3 i)).WholeWords (EltTy.packing .f32)

variable [Facts₀]

def dot_S1024x1600_S1600x1280_S1024x1280_1_0_0_1_n_n : DotDims S1024x1600 S1600x1280 S1024x1280 where
  lhsContracting := [1]
  rhsContracting := [0]
  lhsNonContracting := [0]
  rhsNonContracting := [1]
  lhsBatch := []
  rhsBatch := []
  wf := dot_S1024x1600_S1600x1280_S1024x1280_1_0_0_1_n_n_wf

abbrev win0_0 : Pipeline.Window sig grid0 :=
  Pipeline.Window.ofSpec (Memref.whole main_arg1) S160x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S160x6400.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S512x1600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x1600.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S1024x1600.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1600x1280.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1280.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x1280.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1600 : Shape := ⟨3, ![4, 2048, 1600]⟩
abbrev S1600x6400 : Shape := ⟨2, ![1600, 6400]⟩
abbrev S6400 : Shape := ⟨1, ![6400]⟩
abbrev S_ : Shape := ⟨0, ![]⟩
abbrev S1600 : Shape := ⟨1, ![1600]⟩
abbrev S1600x1 : Shape := ⟨2, ![1600, 1]⟩
abbrev S4x2048 : Shape := ⟨2, ![4, 2048]⟩
abbrev S4x2048x1 : Shape := ⟨3, ![4, 2048, 1]⟩
abbrev S4x2048x6400 : Shape := ⟨3, ![4, 2048, 6400]⟩
abbrev S1x1x6400 : Shape := ⟨3, ![1, 1, 6400]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x1600, .f32⟩
  | .hbm, ⟨1, _⟩ => ⟨S1600x6400, .f32⟩
  | .hbm, ⟨2, _⟩ => ⟨S6400, .f32⟩
  | .hbm, ⟨3, _⟩ => ⟨S1600x6400, .f32⟩
  | .hbm, ⟨4, _⟩ => ⟨S_, .f32⟩
  | .hbm, ⟨5, _⟩ => ⟨S1600, .f32⟩
  | .hbm, ⟨6, _⟩ => ⟨S1600x1, .f32⟩
  | .hbm, ⟨7, _⟩ => ⟨S_, .f32⟩
  | .hbm, ⟨8, _⟩ => ⟨S1600x1, .f32⟩
  | .hbm, ⟨9, _⟩ => ⟨S1600x1, .f32⟩
  | .hbm, ⟨10, _⟩ => ⟨S_, .f32⟩
  | .hbm, ⟨11, _⟩ => ⟨S1600x1, .f32⟩
  | .hbm, ⟨12, _⟩ => ⟨S1600x1, .f32⟩
  | .hbm, ⟨13, _⟩ => ⟨S1600x6400, .f32⟩
  | .hbm, ⟨14, _⟩ => ⟨S1600x6400, .f32⟩
  | .hbm, ⟨15, _⟩ => ⟨S1600x6400, .f32⟩
  | .hbm, ⟨16, _⟩ => ⟨S_, .f32⟩
  | .hbm, ⟨17, _⟩ => ⟨S1600x1, .f32⟩
  | .hbm, ⟨18, _⟩ => ⟨S1600x1, .f32⟩
  | .hbm, ⟨19, _⟩ => ⟨S1600x6400, .f32⟩
  | .hbm, ⟨20, _⟩ => ⟨S1600x6400, .f32⟩
  | .hbm, ⟨21, _⟩ => ⟨S4x2048x1600, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1600, .f32⟩
  | .hbm, ⟨32, _⟩ => ⟨S4x2048x1600, .f32⟩
  | .hbm, ⟨33, _⟩ => ⟨S4x2048x1600, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1600, .f32⟩
  | .hbm, ⟨38, _⟩ => ⟨S4x2048x1600, .f32⟩
  | .hbm, ⟨39, _⟩ => ⟨S4x2048x6400, .f32⟩
  | .hbm, ⟨40, _⟩ => ⟨S1x1x6400, .f32⟩
  | .hbm, ⟨41, _⟩ => ⟨S4x2048x6400, .f32⟩
  | .hbm, ⟨42, _⟩ => ⟨S4x2048x6400, .f32⟩
  | _, _ => ⟨S4x2048x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  reducesTo_S1600x6400_S1600_d1 : S1600x6400.ReducesTo [1] S1600
  h_S_ : 0 < S_.numel
  bcast_S1600_S1600x1_0 : S1600.BroadcastsInDim S1600x1 (![0] : Fin 1 → Fin S1600x1.rank)
  bcast_S_S1600x1 : S_.BroadcastsInDim S1600x1 (![] : Fin 0 → Fin S1600x1.rank)
  bcast_S1600x1_S1600x6400_0_1 : S1600x1.BroadcastsInDim S1600x6400 (![0, 1] : Fin 2 → Fin S1600x6400.rank)
  reducesTo_S4x2048x1600_S4x2048_d2 : S4x2048x1600.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1600_0_1_2 : S4x2048x1.BroadcastsInDim S4x2048x1600 (![0, 1, 2] : Fin 3 → Fin S4x2048x1600.rank)
  bcast_S6400_S1x1x6400_2 : S6400.BroadcastsInDim S1x1x6400 (![2] : Fin 1 → Fin S1x1x6400.rank)
  bcast_S1x1x6400_S4x2048x6400_0_1_2 : S1x1x6400.BroadcastsInDim S4x2048x6400 (![0, 1, 2] : Fin 3 → Fin S4x2048x6400.rank)
  dot_S4x2048x1600_S1600x6400_S4x2048x6400_2_0_01_1_n_n_wf : DotDims.WF S4x2048x1600 S1600x6400 S4x2048x6400 [2] [0] [0, 1] [1] [] []

variable [Facts₀]

def dot_S4x2048x1600_S1600x6400_S4x2048x6400_2_0_01_1_n_n : DotDims S4x2048x1600 S1600x6400 S4x2048x6400 where
  lhsContracting := [2]
  rhsContracting := [0]
  lhsNonContracting := [0, 1]
  rhsNonContracting := [1]
  lhsBatch := []
  rhsBatch := []
  wf := dot_S4x2048x1600_S1600x6400_S4x2048x6400_2_0_01_1_n_n_wf

class Facts : Prop extends Facts₀ where

variable [Facts]
-- ==== Proof.RunNamed.lean ====
/-
  The program's run with its result named.

  The program is three kernel launches among reshapes. Its buffers' contents at the six boundaries between these
  segments are a fold from the launch memory: a reshape's result after a host stretch, a launch's output array at what
  its write-backs leave. Every weakly fair execution ends with every buffer at the last boundary's contents; read at the
  result buffer this names the result, and read at the arguments it says they are unchanged.
-/
import proofs.«169262_j4226247819931_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents and
    the arguments as launched. -/
theorem run_named : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.RunNamed

end
-- ==== Proof.QuantLaw.lean ====
/-
  Symmetric 8-bit quantization of one entry against its row, on the extended reals.

  For a row with largest magnitude `M`, the scale is `s = 127 / (M + ε)` and an entry `v` is sent to
  `round (v · s) / (s + ε)`, the rounding to the nearest integer with ties to even. The same value is
  `round (v · s) · (1 / (s + ε))`: dividing by `b` is multiplying by the reciprocal of `b` as soon as `b ≠ 0`, and here
  `b = s + ε` is positive, because a largest magnitude is non-negative, so `M + ε > 0`, so `s ≥ 0`, so `s + ε > 0`.
  No entry has to be finite for this: an infinite `M` gives `s = 0` and `b = ε`.
-/
import Idealize.ShloMosaic.PureOps.Ideal

noncomputable section

namespace Cert.Quant

open Idealize.ShloMosaic

/-- The small constant added to a row's largest magnitude and to the scale. -/
abbrev eps : EReal := Ideal.ofBits .f32 0x358637BD#32
/-- The largest 8-bit magnitude, 127. -/
abbrev c127 : EReal := Ideal.ofBits .f32 0x42FE0000#32
/-- One. -/
abbrev cOne : EReal := Ideal.ofBits .f32 0x3F800000#32
/-- The value a maximum starts from, `-∞`. -/
abbrev negInf : EReal := Ideal.ofBits .f32 0xFF800000#32

/-- A row's largest magnitude: the maximum of `|row k|` over the row, started from `-∞`. -/
def absMax {n : ℕ} (row : Fin n → EReal) : EReal :=
  (Finset.univ : Finset (Fin n)).fold max negInf (fun k => max (row k) (-(row k)))

/-- The scale of a row whose largest magnitude is `M`. -/
def scale (M : EReal) : EReal := Ideal.div c127 (M + eps)

/-- Rounding to the nearest integer, ties to even. -/
def rnd (x : EReal) : EReal := Ideal.liftRound Ideal.roundHalfEven x

/-- An entry quantized by a quotient. -/
def quantDiv (v M : EReal) : EReal := Ideal.div (rnd (v * scale M)) (scale M + eps)

/-- An entry quantized by a product with the reciprocal. -/
def quantMul (v M : EReal) : EReal := rnd (v * scale M) * Ideal.div cOne (scale M + eps)

theorem eps_pos : 0 < eps := by
  simp [eps, Ideal.ofBits, Ideal.ieee, -EReal.coe_mul]

theorem c127_nonneg : 0 ≤ c127 := by
  simp [c127, Ideal.ofBits, Ideal.ieee, -EReal.coe_mul]

theorem cOne_eq : cOne = 1 := by
  simp [cOne, Ideal.ofBits, Ideal.ieee, -EReal.coe_mul]; norm_num

/-- A magnitude is non-negative. -/
theorem abs_nonneg (x : EReal) : 0 ≤ max x (-x) := by
  rcases le_total 0 x with h | h
  · exact le_max_of_le_left h
  · exact le_max_of_le_right (EReal.neg_nonneg.2 h)

/-- The largest magnitude of a non-empty row is non-negative. -/
theorem absMax_nonneg {n : ℕ} (hn : 0 < n) (row : Fin n → EReal) : 0 ≤ absMax row :=
  (Finset.le_fold_max 0).2 (Or.inr ⟨⟨0, hn⟩, Finset.mem_univ _, abs_nonneg _⟩)

theorem add_eps_pos {M : EReal} (hM : 0 ≤ M) : 0 < M + eps := by
  rw [add_comm]; exact EReal.add_pos_of_pos_of_nonneg eps_pos hM

theorem scale_nonneg {M : EReal} (hM : 0 ≤ M) : 0 ≤ scale M := by
  unfold scale Ideal.div
  rw [if_neg (add_eps_pos hM).ne']
  exact EReal.mul_nonneg c127_nonneg (EReal.inv_nonneg_of_nonneg (add_eps_pos hM).le)

/-- THE LAW: multiplying by the reciprocal of `s + ε` is dividing by it, `s + ε` being positive. -/
theorem quantMul_eq_quantDiv (v M : EReal) (hM : 0 ≤ M) : quantMul v M = quantDiv v M := by
  have hb : scale M + eps ≠ 0 := (add_eps_pos (scale_nonneg hM)).ne'
  unfold quantMul quantDiv Ideal.div
  rw [if_neg hb, if_neg hb, cOne_eq, one_mul]

end Cert.Quant

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.QuantRows.lean ====
/-
  The row quantizer as a kernel body computes it, read at an index.

  For an `[a, b]` block of whole rows the body takes each row's largest magnitude (a maximum over the second axis
  started from `-∞`), turns it into a column of scales `127 / (M + ε)`, spreads that column and the column of
  reciprocals `1 / (s + ε)` back over the rows, and forms `round (x · s) · (1 / (s + ε))`. At `(p, q)` this is the
  entry `x (p, q)` quantized against the largest magnitude of row `p`.
-/
import proofs.«169262_j4226247819931_2_alg».proof.Proof.QuantLaw
import proofs.«169262_j4226247819931_2_alg».proof.Proof.LibRowReduce
import proofs.«169262_j4226247819931_2_alg».proof.Proof.LibKeepdims

noncomputable section

namespace Cert.Quant

open Idealize.ShloMosaic Idealize.ShloMosaic.ValueIdx

variable {a b : ℕ}

/-- The column of scales: `127 / (M + ε)`, `M` a row's largest magnitude. -/
def scaleCol (x : FVec Ideal ⟨2, ![a, b]⟩ .f32) (hred : (⟨2, ![a, b]⟩ : Shape).Reduces [1] ⟨1, ![a]⟩)
    (hcast : (⟨1, ![a]⟩ : Shape).ShapeCasts ⟨2, ![a, 1]⟩) : FVec Ideal ⟨2, ![a, 1]⟩ .f32 :=
  divf (broadcast ⟨2, ![a, 1]⟩ (Scalar.ofBits (F := Ideal) .f32 0x42FE0000#32))
    (addf (shapeCast ⟨2, ![a, 1]⟩ (multiReduction .maximumf [1] ⟨1, ![a]⟩ (absf x) 0xFF800000#32 hred (.inl rfl) rfl) hcast)
      (broadcast ⟨2, ![a, 1]⟩ (Scalar.ofBits (F := Ideal) .f32 0x358637BD#32)))

/-- The column of reciprocals `1 / (s + ε)`. -/
def recipCol (x : FVec Ideal ⟨2, ![a, b]⟩ .f32) (hred : (⟨2, ![a, b]⟩ : Shape).Reduces [1] ⟨1, ![a]⟩)
    (hcast : (⟨1, ![a]⟩ : Shape).ShapeCasts ⟨2, ![a, 1]⟩) : FVec Ideal ⟨2, ![a, 1]⟩ .f32 :=
  divf (broadcast ⟨2, ![a, 1]⟩ (Scalar.ofBits (F := Ideal) .f32 0x3F800000#32))
    (addf (scaleCol x hred hcast) (broadcast ⟨2, ![a, 1]⟩ (Scalar.ofBits (F := Ideal) .f32 0x358637BD#32)))

/-- The quantized block. -/
def quantRows (x : FVec Ideal ⟨2, ![a, b]⟩ .f32) (hred : (⟨2, ![a, b]⟩ : Shape).Reduces [1] ⟨1, ![a]⟩)
    (hcast : (⟨1, ![a]⟩ : Shape).ShapeCasts ⟨2, ![a, 1]⟩) (hbc : (⟨2, ![a, 1]⟩ : Shape).Broadcasts ⟨2, ![a, b]⟩) :
    FVec Ideal ⟨2, ![a, b]⟩ .f32 :=
  mulf (roundeven (mulf x (broadcastTo ⟨2, ![a, b]⟩ (scaleCol x hred hcast) hbc)))
    (broadcastTo ⟨2, ![a, b]⟩ (recipCol x hred hcast) hbc)

/-- A block row's maximum of magnitudes, started from `-∞`, is the row's largest magnitude. -/
theorem rowMax_apply (x : FVec Ideal ⟨2, ![a, b]⟩ .f32) (hred : (⟨2, ![a, b]⟩ : Shape).Reduces [1] ⟨1, ![a]⟩) (p : Fin a) :
    multiReduction .maximumf [1] ⟨1, ![a]⟩ (absf x) 0xFF800000#32 hred (.inl rfl) rfl (ix1 p)
      = absMax fun k : Fin b => x (ix2 p k) :=
  (Cert.Lib.multiReduction_max_row (absf x) 0xFF800000#32 hred (.inl rfl) rfl p).trans rfl

/-- The scale column at row `p` is the scale of row `p`'s largest magnitude. -/
theorem scaleCol_apply (x : FVec Ideal ⟨2, ![a, b]⟩ .f32) (hred : (⟨2, ![a, b]⟩ : Shape).Reduces [1] ⟨1, ![a]⟩)
    (hcast : (⟨1, ![a]⟩ : Shape).ShapeCasts ⟨2, ![a, 1]⟩) (p : Fin a) (u : Fin 1) :
    scaleCol x hred hcast (ix2 p u) = scale (absMax fun k : Fin b => x (ix2 p k)) := by
  unfold scaleCol
  rw [divf_apply, addf_apply, Cert.Lib.shapeCast_a_a1_apply]
  exact congrArg (fun M : EReal => Ideal.div c127 (M + eps)) (rowMax_apply x hred p)

/-- The reciprocal column at row `p`. -/
theorem recipCol_apply (x : FVec Ideal ⟨2, ![a, b]⟩ .f32) (hred : (⟨2, ![a, b]⟩ : Shape).Reduces [1] ⟨1, ![a]⟩)
    (hcast : (⟨1, ![a]⟩ : Shape).ShapeCasts ⟨2, ![a, 1]⟩) (p : Fin a) (u : Fin 1) :
    recipCol x hred hcast (ix2 p u) = Ideal.div cOne (scale (absMax fun k : Fin b => x (ix2 p k)) + eps) := by
  unfold recipCol
  rw [divf_apply, addf_apply, scaleCol_apply]
  rfl

/-- THE BLOCK AT AN INDEX: entry `(p, q)` quantized, by the product with the reciprocal, against row `p`'s largest
    magnitude. -/
theorem quantRows_apply (x : FVec Ideal ⟨2, ![a, b]⟩ .f32) (hred : (⟨2, ![a, b]⟩ : Shape).Reduces [1] ⟨1, ![a]⟩)
    (hcast : (⟨1, ![a]⟩ : Shape).ShapeCasts ⟨2, ![a, 1]⟩) (hbc : (⟨2, ![a, 1]⟩ : Shape).Broadcasts ⟨2, ![a, b]⟩)
    (p : Fin a) (q : Fin b) :
    quantRows x hred hcast hbc (ix2 p q) = quantMul (x (ix2 p q)) (absMax fun k : Fin b => x (ix2 p k)) := by
  show FloatOps.roundeven (x (ix2 p q) * broadcastTo ⟨2, ![a, b]⟩ (scaleCol x hred hcast) hbc (ix2 p q))
      * broadcastTo ⟨2, ![a, b]⟩ (recipCol x hred hcast) hbc (ix2 p q) = _
  rw [Cert.Lib.broadcastTo_a1_ab_apply, Cert.Lib.broadcastTo_a1_ab_apply, scaleCol_apply, recipCol_apply]
  rfl

end Cert.Quant

end
-- ==== Proof.Region0.lean ====
/-
  The first launch: the weight quantized row by row.

  The grid has ten points; point `t` stages rows `160 t … 160 t + 159` of the weight, whole rows of 6400 entries, and
  writes back the same rows of the output. A row's largest magnitude is therefore taken over the whole row of the array,
  and what the launch leaves in its output array is, at `(r, f)`, the weight's entry `(r, f)` quantized against the
  largest magnitude of row `r`. Stated for any contents `V` of the buffers when the launch is entered.
-/
import proofs.«169262_j4226247819931_2_alg».proof.Proof.Gen.KernelIdeal.Frame
import proofs.«169262_j4226247819931_2_alg».proof.Proof.QuantRows
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Quant
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `(r, f)` of an array quantized against the largest magnitude of its row `r`. -/
def rowQ (A : S1600x6400.Idx → EReal) (r : Fin 1600) (f : Fin 6400) : EReal :=
  quantMul (A (ix2 r f)) (absMax fun k : Fin 6400 => A (ix2 r k))

/-- The array quantized row by row. -/
def QW (A : S1600x6400.Idx → EReal) : S1600x6400.Idx → EReal := fun i => rowQ A (i 0) (i 1)

/-- The body's stored value at `(p, q)` of its block: the entry quantized against the block row's largest magnitude. -/
theorem pay_apply (x0 : FVec Ideal S160x6400 .f32) (p : Fin 160) (q : Fin 6400) :
    k0_pay1 (F := Ideal) x0 (ix2 p q) = quantMul (x0 (ix2 p q)) (absMax fun k : Fin 6400 => x0 (ix2 p k)) :=
  quantRows_apply x0 reduces_S160x6400_S160 shapeCasts_S160_S160x1 broadcasts_S160x1_S160x6400 p q

/-- The index maps over the grid: both windows sit at block row `t`, block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of the row-quantized weight. -/
theorem flushed_eq (c : Dev nD) (t : Fin cfg0.N) :
    (dat0 V c).flushed 1 t = ((cfg0.win 1).blk t).view.read (Elt Ideal) (QW (V c main_arg1)) := by
  show (cfg0.win 1).cut (grid0.coords t) ((dat0 V c).after 1 t) = _
  rw [after0_1]
  unfold out0_1
  rw [View.canon_unit_zero hz]
  simp only [View.ld_unit_zero (S := S160x6400) hz]
  obtain ⟨e0, e1, e2, e3⟩ := idx_facts t
  have ht : t.val < 10 := lt_of_lt_of_eq t.isLt N_0
  have key : ∀ j : S160x6400.Idx,
      k0_pay1 (F := Ideal) (iblk0 V c 0 t) j = QW (V c main_arg1) (((cfg0.win 1).blk t).view.emb j) := by
    intro j
    obtain ⟨p, q, rfl⟩ : ∃ (p : Fin 160) (q : Fin 6400), j = ix2 p q := ⟨j 0, j 1, eq_ix2 j⟩
    have hp : p.val < 160 := p.isLt
    have rd : ∀ y : S160x6400.Idx, iblk0 V c 0 t y = V c main_arg1 (((cfg0.win 0).blk t).view.emb y) := fun y => rfl
    have h0 : ∀ k : Fin 6400, ((cfg0.win 0).blk t).view.emb (ix2 p k)
        = ix2 (⟨t.val * 160 + p.val, by omega⟩ : Fin 1600) k := fun k => by
      funext a; apply Fin.ext
      match a with
      | ⟨0, _⟩ => show win0_0.index t (0 : Fin 2) * 160 + 1 * p.val = t.val * 160 + p.val; omega
      | ⟨1, _⟩ => show win0_0.index t (1 : Fin 2) * 6400 + 1 * k.val = k.val; omega
    have h1 : ((cfg0.win 1).blk t).view.emb (ix2 p q) = ix2 (⟨t.val * 160 + p.val, by omega⟩ : Fin 1600) q := by
      funext a; apply Fin.ext
      match a with
      | ⟨0, _⟩ => show win0_1.index t (0 : Fin 2) * 160 + 1 * p.val = t.val * 160 + p.val; omega
      | ⟨1, _⟩ => show win0_1.index t (1 : Fin 2) * 6400 + 1 * q.val = q.val; omega
    refine (pay_apply (iblk0 V c 0 t) p q).trans ?_
    have hq : iblk0 V c 0 t (ix2 p q) = V c main_arg1 (ix2 (⟨t.val * 160 + p.val, by omega⟩ : Fin 1600) q) :=
      (rd _).trans (congrArg (V c main_arg1) (h0 q))
    have hrow : (fun k : Fin 6400 => iblk0 V c 0 t (ix2 p k))
        = fun k : Fin 6400 => V c main_arg1 (ix2 (⟨t.val * 160 + p.val, by omega⟩ : Fin 1600) k) :=
      funext fun k => (rd _).trans (congrArg (V c main_arg1) (h0 k))
    rw [hq, hrow, h1]
    rfl
  exact funext key

/-- An index of the array is in point `t`'s block iff each coordinate is in the block's range on its axis. -/
theorem mem_blk (t : Fin cfg0.N) (i : S1600x6400.Idx) :
    i ∈ ((cfg0.win 1).blk t).view.set ↔ ∀ a : Fin 2, win0_1.index t a * S160x6400.size a ≤ (i a).val
      ∧ (i a).val < win0_1.index t a * S160x6400.size a + S160x6400.size a := by
  show i ∈ ((View.whole main_v0).slice (win0_1.rect t)).set ↔ _
  rw [View.set_slice_whole, Rect.mem_set_unit]
  exact Iff.rfl

/-- Every row lies in the block of the point `r / 160`. -/
theorem cover (i : S1600x6400.Idx) :
    ∃ t : Fin cfg0.N, (cfg0.win 1).flush t = true ∧ i ∈ ((cfg0.win 1).blk t).view.set := by
  have hi0 : (i 0).val < 1600 := (i 0).isLt
  have hi1 : (i 1).val < 6400 := (i 1).isLt
  have hlt : (i 0).val / 160 < cfg0.N := lt_of_lt_of_eq (by omega) N_0.symm
  obtain ⟨e0, e1, e2, e3⟩ := idx_facts ⟨(i 0).val / 160, hlt⟩
  refine ⟨⟨(i 0).val / 160, hlt⟩, flush0_1 _, ?_⟩
  rw [mem_blk]
  intro a
  match a with
  | ⟨0, _⟩ =>
    show win0_1.index ⟨(i 0).val / 160, hlt⟩ (0 : Fin 2) * 160 ≤ (i 0).val
      ∧ (i 0).val < win0_1.index ⟨(i 0).val / 160, hlt⟩ (0 : Fin 2) * 160 + 160
    have : (⟨(i 0).val / 160, hlt⟩ : Fin cfg0.N).val = (i 0).val / 160 := rfl
    omega
  | ⟨1, _⟩ =>
    show win0_1.index ⟨(i 0).val / 160, hlt⟩ (1 : Fin 2) * 6400 ≤ (i 1).val
      ∧ (i 1).val < win0_1.index ⟨(i 0).val / 160, hlt⟩ (1 : Fin 2) * 6400 + 6400
    omega

/-- THE OUTPUT ARRAY after the launch: the weight as the launch finds it, quantized row by row. -/
theorem final (c : Dev nD) : (dat0 V c).arrAt 1 cfg0.N = QW (V c main_arg1) :=
  (dat0 V c).arrAt_eq_of_cover 1 (QW (V c main_arg1)) (fun t _ => flushed_eq V c t) cover

end Cert.KernelIdeal.Region0

end
-- ==== Proof.Region1.lean ====
/-
  The second launch: the activations quantized token by token.

  The activations arrive flattened to 8192 tokens of 1600 features. The grid has sixteen points; point `t` stages tokens
  `512 t … 512 t + 511`, whole rows of 1600 features, and writes back the same rows of the output. A token's largest
  magnitude is therefore taken over all its features, and what the launch leaves in its output array is, at `(r, k)`,
  the entry `(r, k)` quantized against the largest magnitude of row `r`. Stated for any contents `V` of the buffers
  when the launch is entered.
-/
import proofs.«169262_j4226247819931_2_alg».proof.Proof.Gen.KernelIdeal.Frame
import proofs.«169262_j4226247819931_2_alg».proof.Proof.QuantRows
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Quant
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `(r, f)` of an array quantized against the largest magnitude of its row `r`. -/
def rowQ (A : S8192x1600.Idx → EReal) (r : Fin 8192) (f : Fin 1600) : EReal :=
  quantMul (A (ix2 r f)) (absMax fun k : Fin 1600 => A (ix2 r k))

/-- The array quantized row by row. -/
def QX (A : S8192x1600.Idx → EReal) : S8192x1600.Idx → EReal := fun i => rowQ A (i 0) (i 1)

/-- The body's stored value at `(p, q)` of its block: the entry quantized against the block row's largest magnitude. -/
theorem pay_apply (x0 : FVec Ideal S512x1600 .f32) (p : Fin 512) (q : Fin 1600) :
    k1_pay1 (F := Ideal) x0 (ix2 p q) = quantMul (x0 (ix2 p q)) (absMax fun k : Fin 1600 => x0 (ix2 p k)) := by
  refine (quantRows_apply (shapeCast S512x1600 x0 shapeCasts_S512x1600_S512x1600) reduces_S512x1600_S512 shapeCasts_S512_S512x1
    broadcasts_S512x1_S512x1600 p q).trans ?_
  rw [shapeCast_self]

/-- The index maps over the grid: both windows sit at block row `t`, block column `0`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- WHAT POINT `t` WRITES BACK is block `t` of the row-quantized activations. -/
theorem flushed_eq (c : Dev nD) (t : Fin cfg1.N) :
    (dat1 V c).flushed 1 t = ((cfg1.win 1).blk t).view.read (Elt Ideal) (QX (V c main_v1)) := by
  show (cfg1.win 1).cut (grid1.coords t) ((dat1 V c).after 1 t) = _
  rw [after1_1]
  unfold out1_1
  rw [View.canon_unit_zero hz]
  simp only [View.ld_unit_zero (S := S512x1600) hz]
  obtain ⟨e0, e1, e2, e3⟩ := idx_facts t
  have ht : t.val < 16 := lt_of_lt_of_eq t.isLt N_1
  have key : ∀ j : S512x1600.Idx,
      k1_pay1 (F := Ideal) (iblk1 V c 0 t) j = QX (V c main_v1) (((cfg1.win 1).blk t).view.emb j) := by
    intro j
    obtain ⟨p, q, rfl⟩ : ∃ (p : Fin 512) (q : Fin 1600), j = ix2 p q := ⟨j 0, j 1, eq_ix2 j⟩
    have hp : p.val < 512 := p.isLt
    have rd : ∀ y : S512x1600.Idx, iblk1 V c 0 t y = V c main_v1 (((cfg1.win 0).blk t).view.emb y) := fun y => rfl
    have h0 : ∀ k : Fin 1600, ((cfg1.win 0).blk t).view.emb (ix2 p k)
        = ix2 (⟨t.val * 512 + p.val, by omega⟩ : Fin 8192) k := fun k => by
      funext a; apply Fin.ext
      match a with
      | ⟨0, _⟩ => show win1_0.index t (0 : Fin 2) * 512 + 1 * p.val = t.val * 512 + p.val; omega
      | ⟨1, _⟩ => show win1_0.index t (1 : Fin 2) * 1600 + 1 * k.val = k.val; omega
    have h1 : ((cfg1.win 1).blk t).view.emb (ix2 p q) = ix2 (⟨t.val * 512 + p.val, by omega⟩ : Fin 8192) q := by
      funext a; apply Fin.ext
      match a with
      | ⟨0, _⟩ => show win1_1.index t (0 : Fin 2) * 512 + 1 * p.val = t.val * 512 + p.val; omega
      | ⟨1, _⟩ => show win1_1.index t (1 : Fin 2) * 1600 + 1 * q.val = q.val; omega
    refine (pay_apply (iblk1 V c 0 t) p q).trans ?_
    have hq : iblk1 V c 0 t (ix2 p q) = V c main_v1 (ix2 (⟨t.val * 512 + p.val, by omega⟩ : Fin 8192) q) :=
      (rd _).trans (congrArg (V c main_v1) (h0 q))
    have hrow : (fun k : Fin 1600 => iblk1 V c 0 t (ix2 p k))
        = fun k : Fin 1600 => V c main_v1 (ix2 (⟨t.val * 512 + p.val, by omega⟩ : Fin 8192) k) :=
      funext fun k => (rd _).trans (congrArg (V c main_v1) (h0 k))
    rw [hq, hrow, h1]
    rfl
  exact funext key

/-- An index of the array is in point `t`'s block iff each coordinate is in the block's range on its axis. -/
theorem mem_blk (t : Fin cfg1.N) (i : S8192x1600.Idx) :
    i ∈ ((cfg1.win 1).blk t).view.set ↔ ∀ a : Fin 2, win1_1.index t a * S512x1600.size a ≤ (i a).val
      ∧ (i a).val < win1_1.index t a * S512x1600.size a + S512x1600.size a := by
  show i ∈ ((View.whole main_v2).slice (win1_1.rect t)).set ↔ _
  rw [View.set_slice_whole, Rect.mem_set_unit]
  exact Iff.rfl

/-- Every token lies in the block of the point `r / 512`. -/
theorem cover (i : S8192x1600.Idx) :
    ∃ t : Fin cfg1.N, (cfg1.win 1).flush t = true ∧ i ∈ ((cfg1.win 1).blk t).view.set := by
  have hi0 : (i 0).val < 8192 := (i 0).isLt
  have hi1 : (i 1).val < 1600 := (i 1).isLt
  have hlt : (i 0).val / 512 < cfg1.N := lt_of_lt_of_eq (by omega) N_1.symm
  obtain ⟨e0, e1, e2, e3⟩ := idx_facts ⟨(i 0).val / 512, hlt⟩
  refine ⟨⟨(i 0).val / 512, hlt⟩, flush1_1 _, ?_⟩
  rw [mem_blk]
  intro a
  match a with
  | ⟨0, _⟩ =>
    show win1_1.index ⟨(i 0).val / 512, hlt⟩ (0 : Fin 2) * 512 ≤ (i 0).val
      ∧ (i 0).val < win1_1.index ⟨(i 0).val / 512, hlt⟩ (0 : Fin 2) * 512 + 512
    have : (⟨(i 0).val / 512, hlt⟩ : Fin cfg1.N).val = (i 0).val / 512 := rfl
    omega
  | ⟨1, _⟩ =>
    show win1_1.index ⟨(i 0).val / 512, hlt⟩ (1 : Fin 2) * 1600 ≤ (i 1).val
      ∧ (i 1).val < win1_1.index ⟨(i 0).val / 512, hlt⟩ (1 : Fin 2) * 1600 + 1600
    omega

/-- THE OUTPUT ARRAY after the launch: the flattened activations as the launch finds them, quantized row by row. -/
theorem final (c : Dev nD) : (dat1 V c).arrAt 1 cfg1.N = QX (V c main_v1) :=
  (dat1 V c).arrAt_eq_of_cover 1 (QX (V c main_v1)) (fun t _ => flushed_eq V c t) cover

end Cert.KernelIdeal.Region1

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.Region2.lean ====
/-
  The third launch: the product of the quantized activations and the quantized weight, plus the bias.

  The grid is 8 by 5; point `t` is block row `t / 5`, block column `t % 5`. It stages 1024 whole rows of the quantized
  activations (all 1600 features), all 1600 rows of a band of 1280 columns of the quantized weight, and the same band of
  the bias row, and writes back the 1024 × 1280 block of the output there. The contraction runs over all 1600 features
  inside one point, so what the launch leaves in its output array is, at `(r, f)`, the sum over the features of
  `A (r, k) · B (k, f)`, plus the bias at `f`. Stated for any contents `V` of the buffers when the launch is entered.
-/
import proofs.«169262_j4226247819931_2_alg».proof.Proof.Gen.KernelIdeal.Frame
import proofs.«169262_j4226247819931_2_alg».proof.Proof.LibPlainDot
import Idealize.ShloMosaic.Lib.Pipeline.Value
import Idealize.ShloMosaic.Lib.ValueLayout

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product plus the bias row at `(r, f)`. -/
def mmAt (A : S8192x1600.Idx → EReal) (B : S1600x6400.Idx → EReal) (C : S1x6400.Idx → EReal) (r : Fin 8192) (f : Fin 6400) :
    EReal :=
  (∑ k : Fin 1600, A (ix2 r k) * B (ix2 k f)) + C (ix2 (0 : Fin 1) f)

/-- The product plus the bias row, as an array. -/
def MM (A : S8192x1600.Idx → EReal) (B : S1600x6400.Idx → EReal) (C : S1x6400.Idx → EReal) : S8192x6400.Idx → EReal :=
  fun i => mmAt A B C (i 0) (i 1)

/-- The body's stored value at `(p, q)` of its block: row `p` of the left block against column `q` of the right block,
    summed over the 1600 features, plus the bias block's entry `q`. -/
theorem pay_apply (x0 : FVec Ideal S1024x1600 .bf16) (x1 : FVec Ideal S1600x1280 .bf16) (x2 : FVec Ideal S1x1280 .f32)
    (p : Fin 1024) (q : Fin 1280) :
    k2_pay1 (F := Ideal) x0 x1 x2 (ix2 p q) = (∑ k : Fin 1600, x0 (ix2 p k) * x1 (ix2 k q)) + x2 (ix2 (0 : Fin 1) q) := by
  show matmul dot_S1024x1600_S1600x1280_S1024x1280_1_0_0_1_n_n none (shapeCast S1024x1600 x0 shapeCasts_S1024x1600_S1024x1600)
        (shapeCast S1600x1280 x1 shapeCasts_S1600x1280_S1600x1280) (constant S1024x1280 .f32 0x00000000#32) (ix2 p q)
      + broadcastTo S1024x1280 (shapeCast S1x1280 x2 shapeCasts_S1x1280_S1x1280) broadcasts_S1x1280_S1024x1280 (ix2 p q) = _
  rw [shapeCast_self, shapeCast_self, shapeCast_self, broadcastTo_1b_ab_apply]
  exact congrArg (· + x2 (ix2 (0 : Fin 1) q)) (Cert.Lib.plain_matmul_zero_apply 1024 1600 1280 none x0 x1 p q)

/-- The index maps over the grid: the activations' window follows the block row, the weight's and the bias's the block
    column, the output's both. -/
theorem idx_facts : ∀ t : Fin cfg2.N, win2_0.index t (0 : Fin 2) = t.val / 5 ∧ win2_0.index t (1 : Fin 2) = 0
    ∧ win2_1.index t (0 : Fin 2) = 0 ∧ win2_1.index t (1 : Fin 2) = t.val % 5
    ∧ win2_2.index t (0 : Fin 2) = 0 ∧ win2_2.index t (1 : Fin 2) = t.val % 5
    ∧ win2_3.index t (0 : Fin 2) = t.val / 5 ∧ win2_3.index t (1 : Fin 2) = t.val % 5 :=
  (by decide +kernel : ∀ t : Fin grid2.N, _)

/-- WHAT POINT `t` WRITES BACK is block `t` of the product plus bias. -/
theorem flushed_eq (c : Dev nD) (t : Fin cfg2.N) :
    (dat2 V c).flushed 3 t
      = ((cfg2.win 3).blk t).view.read (Elt Ideal) (MM (V c main_v2) (V c main_v0) (V c main_v3)) := by
  show (cfg2.win 3).cut (grid2.coords t) ((dat2 V c).after 3 t) = _
  rw [after2_3]
  unfold out2_3
  rw [View.canon_unit_zero hz]
  simp only [View.ld_unit_zero (S := S1024x1600) hz, View.ld_unit_zero (S := S1600x1280) hz, View.ld_unit_zero (S := S1x1280) hz]
  obtain ⟨e00, e01, e10, e11, e20, e21, e30, e31⟩ := idx_facts t
  have ht : t.val < 40 := lt_of_lt_of_eq t.isLt N_2
  have key : ∀ j : S1024x1280.Idx,
      k2_pay1 (F := Ideal) (iblk2 V c 0 t) (iblk2 V c 1 t) (iblk2 V c 2 t) j
        = MM (V c main_v2) (V c main_v0) (V c main_v3) (((cfg2.win 3).blk t).view.emb j) := by
    intro j
    obtain ⟨p, q, rfl⟩ : ∃ (p : Fin 1024) (q : Fin 1280), j = ix2 p q := ⟨j 0, j 1, eq_ix2 j⟩
    have hp : p.val < 1024 := p.isLt
    have hq : q.val < 1280 := q.isLt
    have rd0 : ∀ y : S1024x1600.Idx, iblk2 V c 0 t y = V c main_v2 (((cfg2.win 0).blk t).view.emb y) := fun y => rfl
    have rd1 : ∀ y : S1600x1280.Idx, iblk2 V c 1 t y = V c main_v0 (((cfg2.win 1).blk t).view.emb y) := fun y => rfl
    have rd2 : ∀ y : S1x1280.Idx, iblk2 V c 2 t y = V c main_v3 (((cfg2.win 2).blk t).view.emb y) := fun y => rfl
    have h0 : ∀ k : Fin 1600, ((cfg2.win 0).blk t).view.emb (ix2 p k)
        = ix2 (⟨t.val / 5 * 1024 + p.val, by omega⟩ : Fin 8192) k := fun k => by
      funext a; apply Fin.ext
      match a with
      | ⟨0, _⟩ => show win2_0.index t (0 : Fin 2) * 1024 + 1 * p.val = t.val / 5 * 1024 + p.val; omega
      | ⟨1, _⟩ => show win2_0.index t (1 : Fin 2) * 1600 + 1 * k.val = k.val; omega
    have h1 : ∀ k : Fin 1600, ((cfg2.win 1).blk t).view.emb (ix2 k q)
        = ix2 k (⟨t.val % 5 * 1280 + q.val, by omega⟩ : Fin 6400) := fun k => by
      funext a; apply Fin.ext
      match a with
      | ⟨0, _⟩ => show win2_1.index t (0 : Fin 2) * 1600 + 1 * k.val = k.val; omega
      | ⟨1, _⟩ => show win2_1.index t (1 : Fin 2) * 1280 + 1 * q.val = t.val % 5 * 1280 + q.val; omega
    have h2 : ((cfg2.win 2).blk t).view.emb (ix2 (0 : Fin 1) q)
        = ix2 (0 : Fin 1) (⟨t.val % 5 * 1280 + q.val, by omega⟩ : Fin 6400) := by
      funext a; apply Fin.ext
      match a with
      | ⟨0, _⟩ => show win2_2.index t (0 : Fin 2) * 1 + 1 * 0 = 0; omega
      | ⟨1, _⟩ => show win2_2.index t (1 : Fin 2) * 1280 + 1 * q.val = t.val % 5 * 1280 + q.val; omega
    have h3 : ((cfg2.win 3).blk t).view.emb (ix2 p q)
        = ix2 (⟨t.val / 5 * 1024 + p.val, by omega⟩ : Fin 8192) (⟨t.val % 5 * 1280 + q.val, by omega⟩ : Fin 6400) := by
      funext a; apply Fin.ext
      match a with
      | ⟨0, _⟩ => show win2_3.index t (0 : Fin 2) * 1024 + 1 * p.val = t.val / 5 * 1024 + p.val; omega
      | ⟨1, _⟩ => show win2_3.index t (1 : Fin 2) * 1280 + 1 * q.val = t.val % 5 * 1280 + q.val; omega
    refine (pay_apply (iblk2 V c 0 t) (iblk2 V c 1 t) (iblk2 V c 2 t) p q).trans ?_
    rw [h3]
    refine congrArg₂ (· + ·) (Finset.sum_congr rfl fun k _ => congrArg₂ (· * ·) ?_ ?_) ?_
    · exact (rd0 _).trans (congrArg (V c main_v2) (h0 k))
    · exact (rd1 _).trans (congrArg (V c main_v0) (h1 k))
    · exact (rd2 _).trans (congrArg (V c main_v3) h2)
  exact funext key

/-- An index of the array is in point `t`'s block iff each coordinate is in the block's range on its axis. -/
theorem mem_blk (t : Fin cfg2.N) (i : S8192x6400.Idx) :
    i ∈ ((cfg2.win 3).blk t).view.set ↔ ∀ a : Fin 2, win2_3.index t a * S1024x1280.size a ≤ (i a).val
      ∧ (i a).val < win2_3.index t a * S1024x1280.size a + S1024x1280.size a := by
  show i ∈ ((View.whole main_v4).slice (win2_3.rect t)).set ↔ _
  rw [View.set_slice_whole, Rect.mem_set_unit]
  exact Iff.rfl

/-- Entry `(r, f)` lies in the block of the point at block row `r / 1024`, block column `f / 1280`. -/
theorem cover (i : S8192x6400.Idx) :
    ∃ t : Fin cfg2.N, (cfg2.win 3).flush t = true ∧ i ∈ ((cfg2.win 3).blk t).view.set := by
  have hi0 : (i 0).val < 8192 := (i 0).isLt
  have hi1 : (i 1).val < 6400 := (i 1).isLt
  have hlt : (i 0).val / 1024 * 5 + (i 1).val / 1280 < cfg2.N := lt_of_lt_of_eq (by omega) N_2.symm
  obtain ⟨e00, e01, e10, e11, e20, e21, e30, e31⟩ := idx_facts ⟨(i 0).val / 1024 * 5 + (i 1).val / 1280, hlt⟩
  have hv : (⟨(i 0).val / 1024 * 5 + (i 1).val / 1280, hlt⟩ : Fin cfg2.N).val = (i 0).val / 1024 * 5 + (i 1).val / 1280 := rfl
  refine ⟨⟨(i 0).val / 1024 * 5 + (i 1).val / 1280, hlt⟩, flush2_3 _, ?_⟩
  rw [mem_blk]
  intro a
  match a with
  | ⟨0, _⟩ =>
    show win2_3.index ⟨(i 0).val / 1024 * 5 + (i 1).val / 1280, hlt⟩ (0 : Fin 2) * 1024 ≤ (i 0).val
      ∧ (i 0).val < win2_3.index ⟨(i 0).val / 1024 * 5 + (i 1).val / 1280, hlt⟩ (0 : Fin 2) * 1024 + 1024
    omega
  | ⟨1, _⟩ =>
    show win2_3.index ⟨(i 0).val / 1024 * 5 + (i 1).val / 1280, hlt⟩ (1 : Fin 2) * 1280 ≤ (i 1).val
      ∧ (i 1).val < win2_3.index ⟨(i 0).val / 1024 * 5 + (i 1).val / 1280, hlt⟩ (1 : Fin 2) * 1280 + 1280
    omega

/-- THE OUTPUT ARRAY after the launch: the product of the two arrays the launch finds quantized, plus the bias row. -/
theorem final (c : Dev nD) : (dat2 V c).arrAt 3 cfg2.N = MM (V c main_v2) (V c main_v0) (V c main_v3) :=
  (dat2 V c).arrAt_eq_of_cover 3 (MM (V c main_v2) (V c main_v0) (V c main_v3)) (fun t _ => flushed_eq V c t) cover

end Cert.KernelIdeal.Region2

end
-- ==== Proof.Spec.lean ====
/-
  What the program computes, index by index: a quantized matrix product plus a bias.

  Every row of the activations (a token's 1600 features) and every row of the weight (6400 outputs of one feature) is
  quantized against its own largest magnitude; the result at token `(b, s)` and output `f` is the sum over the 1600
  features of the quantized activation times the quantized weight, plus the bias at `f`.
-/
import proofs.«169262_j4226247819931_2_alg».proof.Proof.QuantLaw
import Idealize.ShloMosaic.Lib.ValueIdx

noncomputable section

open scoped BigOperators

namespace Cert.Quant

open Idealize.ShloMosaic Idealize.ShloMosaic.ValueIdx

/-- A token's feature `k`, quantized against the token's largest magnitude. -/
def actQ (x : (⟨3, ![4, 2048, 1600]⟩ : Shape).Idx → EReal) (b : Fin 4) (s : Fin 2048) (k : Fin 1600) : EReal :=
  quantDiv (x (ix3 b s k)) (absMax fun k' : Fin 1600 => x (ix3 b s k'))

/-- The weight of feature `k` for output `f`, quantized against the largest magnitude of feature `k`'s row. -/
def wgtQ (w : (⟨2, ![1600, 6400]⟩ : Shape).Idx → EReal) (k : Fin 1600) (f : Fin 6400) : EReal :=
  quantDiv (w (ix2 k f)) (absMax fun f' : Fin 6400 => w (ix2 k f'))

/-- The result at token `(b, s)` and output `f`. -/
def outAt (x : (⟨3, ![4, 2048, 1600]⟩ : Shape).Idx → EReal) (w : (⟨2, ![1600, 6400]⟩ : Shape).Idx → EReal)
    (bias : (⟨1, ![6400]⟩ : Shape).Idx → EReal) (b : Fin 4) (s : Fin 2048) (f : Fin 6400) : EReal :=
  (∑ k : Fin 1600, actQ x b s k * wgtQ w k f) + bias (ix1 f)

/-- The whole result array. -/
def out (x : (⟨3, ![4, 2048, 1600]⟩ : Shape).Idx → EReal) (w : (⟨2, ![1600, 6400]⟩ : Shape).Idx → EReal)
    (bias : (⟨1, ![6400]⟩ : Shape).Idx → EReal) : (⟨3, ![4, 2048, 6400]⟩ : Shape).Idx → EReal :=
  fun i => outAt x w bias (i 0) (i 1) (i 2)

theorem out_apply (x : (⟨3, ![4, 2048, 1600]⟩ : Shape).Idx → EReal) (w : (⟨2, ![1600, 6400]⟩ : Shape).Idx → EReal)
    (bias : (⟨1, ![6400]⟩ : Shape).Idx → EReal) (b : Fin 4) (s : Fin 2048) (f : Fin 6400) :
    out x w bias (ix3 b s f) = outAt x w bias b s f := rfl

end Cert.Quant

end
-- ==== Proof.LibRowsFlatten.lean ====
/-
  Rows flattened and unflattened. An [a, b, c] array cast to [N, c] with N = a · b keeps the row-major order, so
  row R = i · b + j of the flat array is row (i, j) of the cube, entry by entry; and the cast back reads the flat
  array at that row.
-/
import Idealize.ShloMosaic.Lib.Pipeline.Value
import Idealize.ShloMosaic.Lib.ValueIdx

namespace Cert.LibRowsFlatten

open Idealize.ShloMosaic Idealize.ShloMosaic.ValueIdx

variable {α : Type}

/-- An `[a, b, c]` array cast to `[N, c]` reads, at `(R, k)` with `R = i · b + j`, the operand at `(i, j, k)`. -/
theorem shapeCast_flatten_apply {a b c N : ℕ} (x : (⟨3, ![a, b, c]⟩ : Shape).Idx → α)
    (h : (⟨3, ![a, b, c]⟩ : Shape).ShapeCasts ⟨2, ![N, c]⟩) (i : Fin a) (j : Fin b) (k : Fin c) (R : Fin N)
    (hR : R.val = i.val * b + j.val) :
    shapeCast ⟨2, ![N, c]⟩ x h (ix2 R k) = x (ix3 i j k) :=
  shapeCast_apply x h _ _ (by
    rw [Shape.rowMajor_val_three, Shape.rowMajor_val_two]
    show (i.val * b + j.val) * c + k.val = R.val * c + k.val
    rw [hR])

/-- An `[N, c]` array cast to `[a, b, c]` reads, at `(i, j, k)`, the operand at `(R, k)` with `R = i · b + j`. -/
theorem shapeCast_unflatten_apply {a b c N : ℕ} (y : (⟨2, ![N, c]⟩ : Shape).Idx → α)
    (h : (⟨2, ![N, c]⟩ : Shape).ShapeCasts ⟨3, ![a, b, c]⟩) (i : Fin a) (j : Fin b) (k : Fin c) (R : Fin N)
    (hR : R.val = i.val * b + j.val) :
    shapeCast ⟨3, ![a, b, c]⟩ y h (ix3 i j k) = y (ix2 R k) :=
  shapeCast_apply y h _ _ (by
    rw [Shape.rowMajor_val_three, Shape.rowMajor_val_two]
    show R.val * c + k.val = (i.val * b + j.val) * c + k.val
    rw [hR])

end Cert.LibRowsFlatten
-- ==== Proof.KernelSpec.lean ====
/-
  The three launches and the three reshapes, composed, are the specification.

  The program flattens the activations to 8192 tokens, quantizes them and the weight row by row by the product with the
  reciprocal, multiplies the two, adds the bias row, and unflattens. Row `R = 2048 b + s` of the flattened activations is
  token `(b, s)`, so its largest magnitude is the token's; a largest magnitude is non-negative, so the product with the
  reciprocal is the quotient (the quantizer's law); and the unflattened result at `(b, s, f)` is the flat result at
  `(R, f)`. Index by index this is the specification's sum over the features plus the bias.
-/
import proofs.«169262_j4226247819931_2_alg».proof.Proof.Region0
import proofs.«169262_j4226247819931_2_alg».proof.Proof.Region1
import proofs.«169262_j4226247819931_2_alg».proof.Proof.Region2
import proofs.«169262_j4226247819931_2_alg».proof.Proof.Spec
import proofs.«169262_j4226247819931_2_alg».proof.Proof.LibRowsFlatten
import Idealize.ShloMosaic.Lib.ValueLayout

noncomputable section

open scoped BigOperators

namespace Cert.KernelIdeal.KernelSpec

open Cert.KernelIdeal Cert.KernelIdeal.Gen Idealize.ShloMosaic Idealize.ShloMosaic.ValueIdx Cert.Quant

/-- The program's result as a function of its three arguments: flatten, quantize both, multiply, add the bias row,
    unflatten. -/
def kernelOut (x : S4x2048x1600.Idx → EReal) (w : S1600x6400.Idx → EReal) (bias : S6400.Idx → EReal) :
    S4x2048x6400.Idx → EReal :=
  shapeCast S4x2048x6400
    (Region2.MM (Region1.QX (shapeCast S8192x1600 x shapeCasts_S4x2048x1600_S8192x1600)) (Region0.QW w)
      (shapeCast S1x6400 bias shapeCasts_S6400_S1x6400))
    shapeCasts_S8192x6400_S4x2048x6400

/-- THE COMPOSITE IS THE SPECIFICATION, index by index. -/
theorem kernelOut_eq (x : S4x2048x1600.Idx → EReal) (w : S1600x6400.Idx → EReal) (bias : S6400.Idx → EReal) :
    kernelOut x w bias = out x w bias := by
  funext i
  obtain ⟨b, s, f, rfl⟩ : ∃ (b : Fin 4) (s : Fin 2048) (f : Fin 6400), i = ix3 b s f := ⟨i 0, i 1, i 2, eq_ix3 i⟩
  have hb : b.val < 4 := b.isLt
  have hs : s.val < 2048 := s.isLt
  obtain ⟨R, hR⟩ : ∃ R : Fin 8192, R.val = b.val * 2048 + s.val := ⟨⟨b.val * 2048 + s.val, by omega⟩, rfl⟩
  have hA : ∀ k : Fin 1600,
      Region1.QX (shapeCast S8192x1600 x shapeCasts_S4x2048x1600_S8192x1600) (ix2 R k) = actQ x b s k := fun k => by
    have e : ∀ k' : Fin 1600, shapeCast S8192x1600 x shapeCasts_S4x2048x1600_S8192x1600 (ix2 R k') = x (ix3 b s k') :=
      fun k' => Cert.LibRowsFlatten.shapeCast_flatten_apply x shapeCasts_S4x2048x1600_S8192x1600 b s k' R hR
    show quantMul (shapeCast S8192x1600 x shapeCasts_S4x2048x1600_S8192x1600 (ix2 R k))
      (absMax fun k' : Fin 1600 => shapeCast S8192x1600 x shapeCasts_S4x2048x1600_S8192x1600 (ix2 R k')) = _
    simp only [e]
    exact quantMul_eq_quantDiv _ _ (absMax_nonneg (by decide) _)
  have hB : ∀ k : Fin 1600, Region0.QW w (ix2 k f) = wgtQ w k f := fun k =>
    quantMul_eq_quantDiv _ _ (absMax_nonneg (by decide) _)
  have hC : shapeCast S1x6400 bias shapeCasts_S6400_S1x6400 (ix2 (0 : Fin 1) f) = bias (ix1 f) :=
    shapeCast_a_1a_apply bias shapeCasts_S6400_S1x6400 0 f
  unfold kernelOut
  rw [Cert.LibRowsFlatten.shapeCast_unflatten_apply _ shapeCasts_S8192x6400_S4x2048x6400 b s f R hR, out_apply]
  show (∑ k : Fin 1600, Region1.QX (shapeCast S8192x1600 x shapeCasts_S4x2048x1600_S8192x1600) (ix2 R k) * Region0.QW w (ix2 k f))
      + shapeCast S1x6400 bias shapeCasts_S6400_S1x6400 (ix2 (0 : Fin 1) f) = _
  rw [hC]
  exact congrArg (· + bias (ix1 f)) (Finset.sum_congr rfl fun k _ => by rw [hA, hB])

end Cert.KernelIdeal.KernelSpec

end
-- ==== Proof.KernelValue.lean ====
/-
  The program's result buffer after the run, as a function of the arguments.

  The contents of the buffers at the boundaries between the program's segments are a fold from the launch memory. Read
  backwards from the result buffer: the last reshape unflattens the third launch's output; that launch multiplies what it
  finds in the quantized-activation and quantized-weight buffers and adds the bias row it finds; the bias row is the
  bias argument reshaped (no launch writes it); the quantized activations are the second launch's output over the
  flattened activation argument; the quantized weight is the first launch's output over the weight argument, which no
  later segment writes. Composed, the result buffer holds the specification of the three arguments.
-/
import proofs.«169262_j4226247819931_2_alg».proof.Proof.RunNamed
import proofs.«169262_j4226247819931_2_alg».proof.Proof.KernelSpec
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## The first launch's output, carried to the third launch -/

/-- After the first launch the quantized-weight buffer holds the weight argument quantized row by row. -/
theorem W1_v0 (c : Dev nD) :
    W1 m ρ c (Proc.devRef .tc main_v0) = Region0.QW (m ((c : Thread nD τ).loc main_arg1)) :=
  (W1_arr m ρ c 1).trans (Region0.final (V0 m ρ) c)

/-- The first reshape does not write it. -/
theorem W2_v0 (c : Dev nD) : W2 m ρ c (Proc.devRef .tc main_v0) = W1 m ρ c (Proc.devRef .tc main_v0) := by
  show StableHlo.after (hostOps1 (F := Ideal)) (W1 m ρ c) (Proc.devRef .tc main_v0) = _
  dsimp only [hostOps1]
  after_results

/-- The second reshape does not write it; nor does the second launch. -/
theorem V4_v0 (c : Dev nD) : V4 m ρ c main_v0 = Region0.QW (m ((c : Thread nD τ).loc main_arg1)) := by
  have h : W4 m ρ c (Proc.devRef .tc main_v0) = W3 m ρ c (Proc.devRef .tc main_v0) := by
    show StableHlo.after (hostOps2 (F := Ideal)) (W3 m ρ c) (Proc.devRef .tc main_v0) = _
    dsimp only [hostOps2]
    after_results
  exact h.trans ((W3_of_ne m ρ c main_v0 (by decide)).trans ((W2_v0 m ρ c).trans (W1_v0 m ρ c)))

/-! ## The activations: flattened, then the second launch's output -/

/-- The second launch finds the activation argument flattened. -/
theorem V2_v1 (c : Dev nD) :
    V2 m ρ c main_v1
      = shapeCast S8192x1600 (m ((c : Thread nD τ).loc main_arg0) : S4x2048x1600.Idx → EReal) shapeCasts_S4x2048x1600_S8192x1600 := by
  show StableHlo.after (hostOps1 (F := Ideal)) (W1 m ρ c) (Proc.devRef .tc main_v1) = _
  dsimp only [hostOps1]
  after_results
  rw [W1_of_ne m ρ c main_arg0 (by decide)]
  rfl

/-- The third launch finds, in the quantized-activation buffer, the flattened activations quantized row by row. -/
theorem V4_v2 (c : Dev nD) :
    V4 m ρ c main_v2
      = Region1.QX (shapeCast S8192x1600 (m ((c : Thread nD τ).loc main_arg0) : S4x2048x1600.Idx → EReal)
          shapeCasts_S4x2048x1600_S8192x1600) := by
  have h : W4 m ρ c (Proc.devRef .tc main_v2) = W3 m ρ c (Proc.devRef .tc main_v2) := by
    show StableHlo.after (hostOps2 (F := Ideal)) (W3 m ρ c) (Proc.devRef .tc main_v2) = _
    dsimp only [hostOps2]
    after_results
  refine h.trans ((W3_arr m ρ c 1).trans ((Region1.final (V2 m ρ) c).trans ?_))
  rw [V2_v1]

/-! ## The bias row -/

/-- The bias argument reaches the second reshape as launched. -/
theorem W3_arg2 (c : Dev nD) : W3 m ρ c (Proc.devRef .tc main_arg2) = m ((c : Thread nD τ).loc main_arg2) := by
  have h : W2 m ρ c (Proc.devRef .tc main_arg2) = W1 m ρ c (Proc.devRef .tc main_arg2) := by
    show StableHlo.after (hostOps1 (F := Ideal)) (W1 m ρ c) (Proc.devRef .tc main_arg2) = _
    dsimp only [hostOps1]
    after_results
  exact (W3_of_ne m ρ c main_arg2 (by decide)).trans (h.trans (W1_of_ne m ρ c main_arg2 (by decide)))

/-- The third launch finds the bias argument reshaped to a row. -/
theorem V4_v3 (c : Dev nD) :
    V4 m ρ c main_v3 = shapeCast S1x6400 (m ((c : Thread nD τ).loc main_arg2) : S6400.Idx → EReal) shapeCasts_S6400_S1x6400 := by
  show StableHlo.after (hostOps2 (F := Ideal)) (W3 m ρ c) (Proc.devRef .tc main_v3) = _
  dsimp only [hostOps2]
  after_results
  rw [W3_arg2]
  rfl

/-! ## The result -/

/-- THE RESULT BUFFER at the last boundary is the specification of the three arguments. -/
theorem W6_v5 (c : Dev nD) :
    W6 m ρ c (Proc.devRef .tc main_v5)
      = Cert.Quant.out (m ((c : Thread nD τ).loc main_arg0)) (m ((c : Thread nD τ).loc main_arg1)) (m ((c : Thread nD τ).loc main_arg2)) := by
  have h5 : W5 m ρ c (Proc.devRef .tc main_v4)
      = Region2.MM (V4 m ρ c main_v2) (V4 m ρ c main_v0) (V4 m ρ c main_v3) :=
    (W5_arr m ρ c 3).trans (Region2.final (V4 m ρ) c)
  have h6 : W6 m ρ c (Proc.devRef .tc main_v5)
      = shapeCast S4x2048x6400 (W5 m ρ c (Proc.devRef .tc main_v4) : S8192x6400.Idx → EReal) shapeCasts_S8192x6400_S4x2048x6400 := by
    show StableHlo.after (hostOps3 (F := Ideal)) (W5 m ρ c) (Proc.devRef .tc main_v5) = _
    dsimp only [hostOps3]
    after_results
    rfl
  rw [h6, h5, V4_v2, V4_v0, V4_v3]
  exact KernelSpec.kernelOut_eq _ _ _

/-- THE KERNEL'S RUN: every weakly fair execution terminates, nothing faulting, with the result buffer at the
    specification of the arguments and the arguments as launched. -/
theorem run : θ_run defs (onTc (τ := τ) (main (F := Ideal))) ⟨m, fun _ => 0, ρ⟩ (fun r => ∀ c : Dev nD,
      r.2.mem ((c.tc : Thread nD τ).loc main_v5)
        = Cert.Quant.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W6_v5 m ρ c), (h c).2⟩) (RunNamed.run_named m ρ)

end Cert.KernelIdeal.KernelValue

end
-- ==== Proof.LibHostRowMax.lean ====
/-
  A host maximum over the second axis of an `[a, b]` array, read at a row, on the extended reals: at row `r` it is the
  fold of `max` from the initial value over the entries `(r, k)`, `k : Fin b`, the fold taken over `Finset.univ` — the
  form in which a kernel's row maximum is read, so that the two meet as one term.
-/
import Idealize.ShloMosaic.PureOps.Ideal
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A host maximum over the second axis of a rank-2 array: the fold of `max` from the initial value over the row. -/
theorem hostReduce_max_row {a b : ℕ} {φ : FTy} {u : Shape} (X : FVec Ideal ⟨2, ![a, b]⟩ φ) (init : FVec Ideal u φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) X init h' hu (ix1 r)
      = (Finset.univ : Finset (Fin b)).fold max (init (Shape.Idx.first hu)) (fun k => X (ix2 r k)) := by
  refine (Host.reduce_eq_fold_single (FloatOps.maximumf (F := Ideal) (φ := φ)) X init h' h hu (ix1 r)).trans ?_
  have e : (X ∘ h.lift (ix1 r)) = fun k : Fin b => X (ix2 r k) := funext fun k => congrArg X (lift_row h r k)
  rw [e]
  rfl

end Cert.LibHostRowMax

end
-- ==== Proof.RefSide.lean ====
/-
  The reference computes the specification.

  The reference quantizes the weight's rows and the tokens' rows by the quotient `round (v · s) / (s + ε)`, contracts the
  two over the 1600 features, and adds the bias. Read one operation at a time and at an index, its result is the
  specification's term: a row's maximum of magnitudes is the row's largest magnitude, the scale and the quotient are the
  quantizer's, the contraction is the sum over the features.
-/
import proofs.«169262_j4226247819931_2_alg».proof.Proof.Gen.ReferenceIdeal.Read
import proofs.«169262_j4226247819931_2_alg».proof.Proof.Spec
import proofs.«169262_j4226247819931_2_alg».proof.Proof.LibRowReduce
import proofs.«169262_j4226247819931_2_alg».proof.Proof.LibHostRowMax

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Quant

/-- The weight's row maximum is the row's largest magnitude. -/
theorem wgtMax_apply (x1 : (⟨S1600x6400, .f32⟩ : BufTy).Contents (Elt Ideal)) (k : Fin 1600) :
    val_main_v1 (F := Ideal) x1 (ix1 k) = absMax fun f : Fin 6400 => x1 (ix2 k f) := by
  unfold val_main_v1
  refine (Cert.LibHostRowMax.hostReduce_max_row (val_main_v0 (F := Ideal) x1) (val_main_cst (F := Ideal))
    reducesTo_S1600x6400_S1600_d1 (by decide) h_S_ k).trans ?_
  rfl

/-- A token's maximum is the token's largest magnitude. -/
theorem actMax_apply (x0 : (⟨S4x2048x1600, .f32⟩ : BufTy).Contents (Elt Ideal)) (b : Fin 4) (s : Fin 2048) :
    val_main_v15 (F := Ideal) x0 (ix2 b s) = absMax fun k : Fin 1600 => x0 (ix3 b s k) := by
  unfold val_main_v15
  refine (Cert.Lib.hostReduce_max_last3 (val_main_v14 (F := Ideal) x0) (val_main_cst_3 (F := Ideal))
    reducesTo_S4x2048x1600_S4x2048_d2 (by decide) h_S_ b s).trans ?_
  rfl

/-- The weight's scale column at row `k`. -/
theorem wgtScale_apply (x1 : (⟨S1600x6400, .f32⟩ : BufTy).Contents (Elt Ideal)) (k : Fin 1600) (u : Fin 1) :
    val_main_v6 (F := Ideal) x1 (ix2 k u) = scale (absMax fun f : Fin 6400 => x1 (ix2 k f)) := by
  have e2 : idx_main_v2 (ix2 k u) = ix1 k := funext fun a => by match a with | ⟨0, _⟩ => rfl
  rw [val_main_v6_apply, val_main_v5_apply, val_main_cst_1_apply, val_main_v4_apply, val_main_v3_apply,
    val_main_cst_0_apply, val_main_v2_apply, e2, wgtMax_apply]
  rfl

/-- The reference's quantized weight at `(k, f)`. -/
theorem wgt_apply (x1 : (⟨S1600x6400, .f32⟩ : BufTy).Contents (Elt Ideal)) (k : Fin 1600) (f : Fin 6400) :
    val_main_v13 (F := Ideal) x1 (ix2 k f) = wgtQ x1 k f := by
  have e7 : idx_main_v7 (ix2 k f) = ix2 k (0 : Fin 1) :=
    funext fun a => by match a with | ⟨0, _⟩ => rfl | ⟨1, _⟩ => rfl
  have e12 : idx_main_v12 (ix2 k f) = ix2 k (0 : Fin 1) :=
    funext fun a => by match a with | ⟨0, _⟩ => rfl | ⟨1, _⟩ => rfl
  rw [val_main_v13_apply, val_main_v9_apply, val_main_v8_apply, val_main_v7_apply, e7, val_main_v12_apply, e12,
    val_main_v11_apply, val_main_v10_apply, val_main_cst_2_apply, wgtScale_apply]
  rfl

/-- The tokens' scale column at token `(b, s)`. -/
theorem actScale_apply (x0 : (⟨S4x2048x1600, .f32⟩ : BufTy).Contents (Elt Ideal)) (b : Fin 4) (s : Fin 2048) (u : Fin 1) :
    val_main_v20 (F := Ideal) x0 (ix3 b s u) = scale (absMax fun k : Fin 1600 => x0 (ix3 b s k)) := by
  have e16 : idx_main_v16 (ix3 b s u) = ix2 b s := funext fun a => by match a with | ⟨0, _⟩ => rfl | ⟨1, _⟩ => rfl
  rw [val_main_v20_apply, val_main_v19_apply, val_main_cst_5_apply, val_main_v18_apply, val_main_v17_apply,
    val_main_cst_4_apply, val_main_v16_apply, e16, actMax_apply]
  rfl

/-- The reference's quantized activation at `(b, s, k)`. -/
theorem act_apply (x0 : (⟨S4x2048x1600, .f32⟩ : BufTy).Contents (Elt Ideal)) (b : Fin 4) (s : Fin 2048) (k : Fin 1600) :
    val_main_v27 (F := Ideal) x0 (ix3 b s k) = actQ x0 b s k := by
  have e21 : idx_main_v21 (ix3 b s k) = ix3 b s (0 : Fin 1) :=
    funext fun a => by match a with | ⟨0, _⟩ => rfl | ⟨1, _⟩ => rfl | ⟨2, _⟩ => rfl
  have e26 : idx_main_v26 (ix3 b s k) = ix3 b s (0 : Fin 1) :=
    funext fun a => by match a with | ⟨0, _⟩ => rfl | ⟨1, _⟩ => rfl | ⟨2, _⟩ => rfl
  rw [val_main_v27_apply, val_main_v23_apply, val_main_v22_apply, val_main_v21_apply, e21, val_main_v26_apply, e26,
    val_main_v25_apply, val_main_v24_apply, val_main_cst_6_apply, actScale_apply]
  rfl

/-- THE REFERENCE'S RESULT is the specification. -/
theorem result_eq (x0 : (⟨S4x2048x1600, .f32⟩ : BufTy).Contents (Elt Ideal)) (x1 : (⟨S1600x6400, .f32⟩ : BufTy).Contents (Elt Ideal))
    (x2 : (⟨S6400, .f32⟩ : BufTy).Contents (Elt Ideal)) :
    val_main_v31 (F := Ideal) x0 x1 x2 = out x0 x1 x2 := by
  funext i
  obtain ⟨b, s, f, rfl⟩ : ∃ (b : Fin 4) (s : Fin 2048) (f : Fin 6400), i = ix3 b s f := ⟨i 0, i 1, i 2, eq_ix3 i⟩
  have el : ∀ k : Fin 1600, lidx_main_v28 (ix3 b s f) k = ix3 b s k := fun k =>
    funext fun a => by match a with | ⟨0, _⟩ => rfl | ⟨1, _⟩ => rfl | ⟨2, _⟩ => rfl
  have er : ∀ k : Fin 1600, ridx_main_v28 (ix3 b s f) k = ix2 k f := fun k =>
    funext fun a => by match a with | ⟨0, _⟩ => rfl | ⟨1, _⟩ => rfl
  have eb : idx_main_v29 (idx_main_v30 (ix3 b s f)) = ix1 f := funext fun a => by match a with | ⟨0, _⟩ => rfl
  have hsum : (∑ k : Fin 1600, val_main_v27 (F := Ideal) x0 (lidx_main_v28 (ix3 b s f) k)
        * val_main_v13 (F := Ideal) x1 (ridx_main_v28 (ix3 b s f) k))
      = ∑ k : Fin 1600, actQ x0 b s k * wgtQ x1 k f :=
    Finset.sum_congr rfl fun k _ => by rw [el, er, act_apply, wgt_apply]
  rw [out_apply, val_main_v31_apply, val_main_v28_apply, val_main_v30_apply, val_main_v29_apply, eb, hsum]
  rfl

end Cert.ReferenceIdeal.RefValue

end
-- ==== Proof.lean ====
/-
  The proof of `Cert.Claim`: a quantized linear layer in three kernel launches against its plain reference, equal as
  extended reals.

  Both programs quantize every row of the weight and every token of the activations against the row's largest magnitude
  `M` — scale `s = 127 / (M + ε)`, entry `v ↦ round (v · s) / (s + ε)` with ties to even — then contract the two over the 1600
  features and add the bias. They differ in three ways, none of which changes a value on the extended reals.
  The kernel multiplies by the reciprocal `1 / (s + ε)` where the reference divides by `s + ε`: the same, because
  `s + ε` is positive (Proof/QuantLaw.lean; no input has to be finite for it). The kernel stores the quantized arrays in
  a narrower float format: a change of format is the identity here. And the kernel works block by block on flattened
  tokens: whole rows per block, so a row's largest magnitude is the same maximum (Proof/Region0.lean, Region1.lean), and a
  block of the product contracts over all the features at once (Proof/Region2.lean).
  The specification is Proof/Spec.lean; the reference computes it (Proof/RefSide.lean); the kernel's three launches and
  three reshapes, composed, compute it (Proof/KernelSpec.lean, over the run of Proof/RunNamed.lean read at the result
  buffer in Proof/KernelValue.lean). The three frames are the generated ones (the reference's is its generated run with
  the result dropped); the idealization rewrote nothing, so `preserves` is trivial.
-/
import proofs.«169262_j4226247819931_2_alg».proof.Defs
import proofs.«169262_j4226247819931_2_alg».proof.Proof.Gen.Kernel
import proofs.«169262_j4226247819931_2_alg».proof.Proof.Gen.Kernel.Frame
import proofs.«169262_j4226247819931_2_alg».proof.Proof.Gen.KernelIdeal
import proofs.«169262_j4226247819931_2_alg».proof.Proof.Gen.KernelIdeal.Frame
import proofs.«169262_j4226247819931_2_alg».proof.Proof.Gen.ReferenceIdeal
import proofs.«169262_j4226247819931_2_alg».proof.Proof.Gen.ReferenceIdeal.Run
import proofs.«169262_j4226247819931_2_alg».proof.Proof.Gen.ReferenceIdeal.Read
import proofs.«169262_j4226247819931_2_alg».proof.Proof.Gen.Pre_finite_inputs
import proofs.«169262_j4226247819931_2_alg».proof.Proof.KernelValue
import proofs.«169262_j4226247819931_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the specification of the arguments, and the arguments agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
